-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S8192x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S1x1 : Shape := ⟨2, ![1, 1]⟩
abbrev S8192x8192 : Shape := ⟨2, ![8192, 8192]⟩
abbrev S256x2048 : Shape := ⟨2, ![256, 2048]⟩
abbrev S512x2048 : Shape := ⟨2, ![512, 2048]⟩
abbrev S256x512 : Shape := ⟨2, ![256, 512]⟩
abbrev S256 : Shape := ⟨1, ![256]⟩
abbrev S256x1 : Shape := ⟨2, ![256, 1]⟩
abbrev S4x2048x8192 : Shape := ⟨3, ![4, 2048, 8192]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S8192x8192, .f32⟩
  | .hbm, ⟨14, _⟩ => ⟨S4x2048x8192, .f32⟩
  | .local _ .vmem, ⟨0, _⟩ => ⟨S1x1, .f32⟩
  | .local _ .vmem, ⟨1, _⟩ => ⟨S256x2048, .f32⟩
  | .local _ .vmem, ⟨2, _⟩ => ⟨S256x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S256x512, .f32⟩
  | .local _ .vmem, ⟨7, _⟩ => ⟨S256x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x2048_S8192x2048 : S4x2048x2048.ShapeCasts S8192x2048
  shapeCasts_S2048_S1x2048 : S2048.ShapeCasts S1x2048
  reducesTo_S8192x2048_S_d0_1 : S8192x2048.ReducesTo [0, 1] S_
  h_S_ : 0 < S_.numel
  shapeCasts_S_S1x1 : S_.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x2048_S512x2048_0_0 : ∀ a, (![0, 0] : Fin 2 → Nat) a + S512x2048.size a ≤ S512x2048.size a
  h_S512x2048 : 0 < S512x2048.numel
  inb_S256x512_S256x512_0_0 : ∀ a, (![0, 0] : Fin 2 → Nat) a + S256x512.size a ≤ S256x512.size a
  h_S256x512 : 0 < S256x512.numel
  shapeCasts_S8192x8192_S4x2048x8192 : S8192x8192.ShapeCasts S4x2048x8192
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x8192.size a
  hwx0_4 : ∀ i : grid0.Coords, EltTy.bits .f32 = 32 ∨ (Rect.block (s := S8192x8192) S256x512.size (cc0_transform_4 i) (hinb0_4 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_v6) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S4x2048x8192, .f32⟩
  | .hbm, ⟨40, _⟩ => ⟨S4x2048x8192, .f32⟩
  | .hbm, ⟨41, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S8192x2048_S_d0_1 : S8192x2048.ReducesTo [0, 1] S_
  bcast_S_S8192x2048 : S_.BroadcastsInDim S8192x2048 (![] : Fin 0 → Fin S8192x2048.rank)
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Ternary.lean ====
/-
  Rounding to the nearest integer and clamping to [-1, 1] commute, and a value subtracted and added back.

  A weight divided by a positive scale is quantised to one of -1, 0, 1 in two ways: round to the nearest integer
  (ties to even) and then clamp to [-1, 1]; or clamp first, round, and then write the result as
  (q - y) + y around the unquantised quotient y. Rounding is monotone and fixes the integers, and the clamp's bounds
  are integers, so the two orders give the same integer; and on the extended reals (q - y) + y = q as soon as y is
  a real number. The quotient of a real number by anything that is not zero is a real number, which is where the
  weights' finiteness is used.
-/
import Idealize.ShloMosaic.PureOps.Ideal
import Idealize.ShloMosaic.PureOps.Ideal.Laws
import Idealize.ShloMosaic.Lib.IdealHost

noncomputable section

namespace Cert.TernaryLinear

open Idealize.ShloMosaic

/-! ## Rounding half to even, on the reals -/

/-- The rounding is the floor, or the floor plus one when the fractional part is at least one half. -/
theorem roundHalfEven_cases (r : ℝ) :
    Ideal.roundHalfEven r = ⌊r⌋ ∨ (Ideal.roundHalfEven r = ⌊r⌋ + 1 ∧ (1 / 2 : ℝ) ≤ r - ⌊r⌋) := by
  unfold Ideal.roundHalfEven
  dsimp only
  split_ifs with h1 h2 h3
  · exact Or.inl rfl
  · exact Or.inr ⟨rfl, h2.le⟩
  · exact Or.inl rfl
  · exact Or.inr ⟨rfl, not_lt.mp h1⟩

/-- An integer rounds to itself. -/
theorem roundHalfEven_intCast (n : ℤ) : Ideal.roundHalfEven (n : ℝ) = n := by
  rcases roundHalfEven_cases (n : ℝ) with h | ⟨-, h⟩
  · rw [h, Int.floor_intCast]
  · rw [Int.floor_intCast, sub_self] at h; norm_num at h

/-- At or above one the rounding is at least one. -/
theorem one_le_roundHalfEven {r : ℝ} (h : 1 ≤ r) : 1 ≤ Ideal.roundHalfEven r := by
  have hf : (1 : ℤ) ≤ ⌊r⌋ := Int.le_floor.mpr (by exact_mod_cast h)
  rcases roundHalfEven_cases r with e | ⟨e, -⟩ <;> rw [e] <;> omega

/-- At or below minus one the rounding is at most minus one. -/
theorem roundHalfEven_le_neg_one {r : ℝ} (h : r ≤ -1) : Ideal.roundHalfEven r ≤ -1 := by
  have hfl : (⌊r⌋ : ℝ) ≤ r := Int.floor_le r
  rcases roundHalfEven_cases r with e | ⟨e, hh⟩
  · rw [e]
    have : (⌊r⌋ : ℝ) ≤ ((-1 : ℤ) : ℝ) := by push_cast; linarith
    exact_mod_cast this
  · rw [e]
    have : (⌊r⌋ : ℝ) < ((-1 : ℤ) : ℝ) := by push_cast; linarith
    have : ⌊r⌋ < -1 := by exact_mod_cast this
    omega

/-- Between minus one and one the rounding stays between minus one and one. -/
theorem roundHalfEven_mem {r : ℝ} (h1 : -1 ≤ r) (h2 : r ≤ 1) :
    -1 ≤ Ideal.roundHalfEven r ∧ Ideal.roundHalfEven r ≤ 1 := by
  have hlo : (-1 : ℤ) ≤ ⌊r⌋ := Int.le_floor.mpr (by push_cast; exact h1)
  have hfl : (⌊r⌋ : ℝ) ≤ r := Int.floor_le r
  have hhi : ⌊r⌋ ≤ 1 := by
    have : (⌊r⌋ : ℝ) ≤ ((1 : ℤ) : ℝ) := by push_cast; linarith
    exact_mod_cast this
  rcases roundHalfEven_cases r with e | ⟨e, hh⟩
  · rw [e]; exact ⟨hlo, hhi⟩
  · rw [e]
    have : (⌊r⌋ : ℝ) < ((1 : ℤ) : ℝ) := by push_cast; linarith
    have : ⌊r⌋ < 1 := by exact_mod_cast this
    omega

/-- Clamping to [-1, 1] and rounding commute on the reals. -/
theorem clamp_round_real (r : ℝ) :
    min (1 : ℝ) (max (-1) ((Ideal.roundHalfEven r : ℤ) : ℝ))
      = ((Ideal.roundHalfEven (min (1 : ℝ) (max (-1) r)) : ℤ) : ℝ) := by
  rcases le_total 1 r with h | h
  · have e1 : min (1 : ℝ) (max (-1) r) = ((1 : ℤ) : ℝ) := by
      rw [max_eq_right (by linarith), min_eq_left h]; norm_num
    have hq : (1 : ℝ) ≤ ((Ideal.roundHalfEven r : ℤ) : ℝ) := by exact_mod_cast one_le_roundHalfEven h
    rw [e1, roundHalfEven_intCast, max_eq_right (by linarith), min_eq_left hq]; norm_num
  · rcases le_total r (-1) with h' | h'
    · have e1 : min (1 : ℝ) (max (-1) r) = ((-1 : ℤ) : ℝ) := by
        rw [max_eq_left h', min_eq_right (by norm_num)]; norm_num
      have hq : ((Ideal.roundHalfEven r : ℤ) : ℝ) ≤ -1 := by exact_mod_cast roundHalfEven_le_neg_one h'
      rw [e1, roundHalfEven_intCast, max_eq_left hq, min_eq_right (by norm_num)]; norm_num
    · obtain ⟨q1, q2⟩ := roundHalfEven_mem h' h
      have q1' : (-1 : ℝ) ≤ ((Ideal.roundHalfEven r : ℤ) : ℝ) := by exact_mod_cast q1
      have q2' : ((Ideal.roundHalfEven r : ℤ) : ℝ) ≤ 1 := by exact_mod_cast q2
      rw [max_eq_right h', min_eq_right h, max_eq_right q1', min_eq_right q2']

/-! ## The same on the extended reals, with the bit patterns of one and minus one -/

/-- The f32 pattern `0xBF800000` is minus one. -/
theorem ofBits_neg_one_f32 : Ideal.ofBits .f32 0xBF800000#32 = ((-1 : ℝ) : EReal) := by
  simp [Ideal.ofBits, Ideal.ieee, -EReal.coe_mul, -EReal.coe_neg]; norm_num

/-- The f32 pattern `0x3F800000` is one, as a real number. -/
theorem ofBits_one_f32' : Ideal.ofBits .f32 0x3F800000#32 = ((1 : ℝ) : EReal) := by
  rw [Ideal.ofBits_one_f32]; norm_cast

/-- Round then clamp, on a real number. -/
def quantRoundClamp (y : EReal) : EReal :=
  min (Ideal.ofBits .f32 0x3F800000#32) (max (Ideal.ofBits .f32 0xBF800000#32) (Ideal.liftRound Ideal.roundHalfEven y))

/-- Clamp, round, subtract the unquantised value and add it back. -/
def quantClampRoundThrough (y : EReal) : EReal :=
  (Ideal.liftRound Ideal.roundHalfEven (min (Ideal.ofBits .f32 0x3F800000#32) (max (Ideal.ofBits .f32 0xBF800000#32) y)) - y) + y

/-- On a real number the two quantisations agree. -/
theorem quant_eq (r : ℝ) : quantRoundClamp (r : EReal) = quantClampRoundThrough (r : EReal) := by
  unfold quantRoundClamp quantClampRoundThrough
  rw [ofBits_one_f32', ofBits_neg_one_f32, Ideal.liftRound_coe,
    ← EReal.coe_strictMono.monotone.map_max, ← EReal.coe_strictMono.monotone.map_min,
    ← EReal.coe_strictMono.monotone.map_max, ← EReal.coe_strictMono.monotone.map_min,
    Ideal.liftRound_coe, clamp_round_real, ← EReal.coe_sub, ← EReal.coe_add, sub_add_cancel]

/-! ## A real number divided by a divisor that is not zero is a real number -/

theorem div_coe_real (w : ℝ) {s : EReal} (hs : s ≠ 0) : ∃ r : ℝ, Ideal.div (w : EReal) s = (r : EReal) := by
  unfold Ideal.div
  rw [if_neg hs]
  induction s using EReal.rec with
  | bot => exact ⟨0, by simp⟩
  | top => exact ⟨0, by simp⟩
  | coe x => exact ⟨w * x⁻¹, by rw [EReal.coe_mul, EReal.coe_inv]⟩

/-- So the two quantisations of a real weight over a scale that is not zero agree. -/
theorem quant_div_eq (w : ℝ) {s : EReal} (hs : s ≠ 0) :
    quantRoundClamp (Ideal.div (w : EReal) s) = quantClampRoundThrough (Ideal.div (w : EReal) s) := by
  obtain ⟨r, hr⟩ := div_coe_real w hs
  rw [hr]; exact quant_eq r

/-! ## The scale's floor is positive -/

/-- The f32 pattern `0x3727C5AC` (the float nearest 1e-5) is a positive number. -/
theorem ofBits_floor_pos : (0 : EReal) < Ideal.ofBits .f32 0x3727C5AC#32 := by
  have : Ideal.ofBits .f32 0x3727C5AC#32 = (((2 ^ 23 + 2606508 : ℕ) : ℝ) * (2 : ℝ) ^ ((110 : ℤ) - 127 - 23) : ℝ) := by
    simp [Ideal.ofBits, Ideal.ieee, -EReal.coe_mul]
  rw [this]
  exact EReal.coe_pos.mpr (by positivity)

/-- A maximum with that floor is not zero. -/
theorem max_floor_ne_zero (a : EReal) : max a (Ideal.ofBits .f32 0x3727C5AC#32) ≠ 0 :=
  (lt_of_lt_of_le ofBits_floor_pos (le_max_right _ _)).ne'

end Cert.TernaryLinear

end
-- ==== Proof.Spec.lean ====
/-
  The function both programs compute, one output element at a time.

  Inputs: activations x[b, s, d] (4 x 2048 x 2048), weights w[o, d] (8192 x 2048), a gain g[d] (2048).
  The scale is one number: the mean of |w| over all 8192 * 2048 entries, but at least the float nearest 1e-5.
  Row (b, s) of x is normalised by the reciprocal root of its mean square plus the float nearest 1e-6 and multiplied
  by the gain; row o of w is divided by the scale and quantised to -1, 0 or 1; the output element (b, s, o) is the
  inner product of the two rows over d, times the scale. The quantisation is a parameter: the two programs spell it
  differently (Ternary.lean), and agree where the weights are real numbers.
-/
import proofs.«159467_j4372276707631_1_alg».proof.Proof.Ternary
import Idealize.ShloMosaic.Lib.ValueIdx

noncomputable section

namespace Cert.TernaryLinear

open Idealize.ShloMosaic Idealize.ShloMosaic.ValueIdx

/-- The shapes of the three inputs and of the result. -/
abbrev SX : Shape := ⟨3, ![4, 2048, 2048]⟩
abbrev SW : Shape := ⟨2, ![8192, 2048]⟩
abbrev SG : Shape := ⟨1, ![2048]⟩
abbrev SOut : Shape := ⟨3, ![4, 2048, 8192]⟩
abbrev S0 : Shape := ⟨0, ![]⟩

theorem reduces_SW_S0 : SW.ReducesTo [0, 1] S0 := by decide
theorem pos_S0 : 0 < S0.numel := by decide

/-- The scale: the sum of |w| over every entry, divided by 2^24 = 8192 * 2048 (pattern `0x4B800000`), and then the
    maximum with the float nearest 1e-5 (pattern `0x3727C5AC`). -/
def scaleOf (w : SW.Idx → EReal) : EReal :=
  (maximumf (F := Ideal) (φ := .f32)
    (Host.divf (F := Ideal) (Host.reduceAdd (F := Ideal) (Host.absf (F := Ideal) (φ := .f32) w) (constant (F := Ideal) S0 .f32 0x00000000#32) reduces_SW_S0 pos_S0)
      (constant (F := Ideal) S0 .f32 0x4B800000#32))
    (constant (F := Ideal) S0 .f32 0x3727C5AC#32)) ix0

/-- The scale is never zero: it is at least a positive number. -/
theorem scaleOf_ne_zero (w : SW.Idx → EReal) : scaleOf w ≠ 0 := max_floor_ne_zero _

/-- One entry of a normalised row: the entry times the reciprocal root of the row's mean square (the sum of squares
    over 2048, pattern `0x45000000`) plus the float nearest 1e-6 (pattern `0x358637BD`), times the gain. -/
def normed (xr g : Fin 2048 → EReal) (k : Fin 2048) : EReal :=
  (xr k * Ideal.rsqrt (Ideal.div (∑ k' : Fin 2048, xr k' * xr k') (Ideal.ofBits .f32 0x45000000#32)
    + Ideal.ofBits .f32 0x358637BD#32)) * g k

/-- One output element from a row of activations, a row of weights, the gain and the scale. -/
def rowOut (quant : EReal → EReal) (xr wr g : Fin 2048 → EReal) (s : EReal) : EReal :=
  (∑ k : Fin 2048, normed xr g k * quant (Ideal.div (wr k) s)) * s

/-- The output element (b, s, o). -/
def resultAt (quant : EReal → EReal) (x : SX.Idx → EReal) (w : SW.Idx → EReal) (g : SG.Idx → EReal)
    (b : Fin 4) (s : Fin 2048) (o : Fin 8192) : EReal :=
  rowOut quant (fun k => x (ix3 b s k)) (fun k => w (ix2 o k)) (fun k => g (ix1 k)) (scaleOf w)

/-- The whole output array. -/
def result (quant : EReal → EReal) (x : SX.Idx → EReal) (w : SW.Idx → EReal) (g : SG.Idx → EReal) : SOut.Idx → EReal :=
  fun i => resultAt quant x w g (i 0) (i 1) (i 2)

theorem result_apply (quant : EReal → EReal) (x : SX.Idx → EReal) (w : SW.Idx → EReal) (g : SG.Idx → EReal)
    (b : Fin 4) (s : Fin 2048) (o : Fin 8192) : result quant x w g (ix3 b s o) = resultAt quant x w g b s o := rfl

/-- Where every weight is a real number the two quantisations give the same output. -/
theorem result_quant_eq (x : SX.Idx → EReal) (w : SW.Idx → EReal) (g : SG.Idx → EReal)
    (hw : ∀ j, ∃ r : ℝ, w j = (r : EReal)) :
    result quantRoundClamp x w g = result quantClampRoundThrough x w g := by
  funext i
  unfold result resultAt rowOut
  refine congrArg (· * scaleOf w) (Finset.sum_congr rfl fun k _ => ?_)
  obtain ⟨r, hr⟩ := hw (ix2 (i 2) k)
  show normed _ _ k * quantRoundClamp (Ideal.div (w (ix2 (i 2) k)) (scaleOf w)) = normed _ _ k * quantClampRoundThrough (Ideal.div (w (ix2 (i 2) k)) (scaleOf w))
  rw [hr, quant_div_eq r (scaleOf_ne_zero w)]

end Cert.TernaryLinear

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Body.lean ====
/-
  The kernel body's stored block, one element at a time.

  At a grid point the body holds a 256 x 2048 block of activations, a 512 x 2048 block of weights, the gain as one
  row and the scale as a 1 x 1 block. It stores, at (p, q) of a 256 x 512 block, the inner product over the 2048
  columns of the normalised activation row p and the quantised weight row q (rounded, then clamped), times the scale:
  the specification's row function of those two rows.
-/
import proofs.«159467_j4372276707631_1_alg».proof.Proof.Spec
import proofs.«159467_j4372276707631_1_alg».proof.Proof.LibColumnLayout
import proofs.«159467_j4372276707631_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.TernaryLinear.Body

open Cert.KernelIdeal Cert.KernelIdeal.Gen Cert.TernaryLinear
open Idealize.ShloMosaic Idealize.ShloMosaic.ValueIdx Idealize.ShloMosaic.ColumnLayout

/-! ## The pieces of the body's arithmetic -/

/-- The scale as the body reads it: the one entry of its 1 x 1 block. -/
def scaleIn (v17 : FVec Ideal S1x1 .f32) : Ideal .f32 := extractAt ![0, 0] v17 inpos_S1x1_p0_0

/-- The matrix product's left operand: the block of activations, each row normalised, times the gain. -/
def lhsOf (v0 : FVec Ideal S256x2048 .f32) (v12 : FVec Ideal S1x2048 .f32) : FVec Ideal S256x2048 .bf16 :=
  truncf .bf16 (mulf
    (mulf (shapeCast S256x2048 v0 shapeCasts_S256x2048_S256x2048)
      (broadcastTo S256x2048 (rsqrt (addf
        (divf (shapeCast S256x1 (multiReduction .add [1] S256
            (mulf (shapeCast S256x2048 v0 shapeCasts_S256x2048_S256x2048) (shapeCast S256x2048 v0 shapeCasts_S256x2048_S256x2048))
            0x00000000#32 reduces_S256x2048_S256 (.inl rfl) rfl) shapeCasts_S256_S256x1)
          (broadcast S256x1 (Scalar.ofBits .f32 0x45000000#32)))
        (broadcast S256x1 (Scalar.ofBits .f32 0x358637BD#32)))) broadcasts_S256x1_S256x2048))
    (broadcastTo S256x2048 (shapeCast S1x2048 v12 shapeCasts_S1x2048_S1x2048) broadcasts_S1x2048_S256x2048)) bitsLt_bf16_f32

/-- The right operand: the block of weights over the scale, rounded and clamped to [-1, 1]. -/
def rhsOf (s : Ideal .f32) (v19 : FVec Ideal S512x2048 .f32) : FVec Ideal S512x2048 .bf16 :=
  truncf .bf16 (minimumf (broadcast S512x2048 (Scalar.ofBits .f32 0x3F800000#32))
    (maximumf (broadcast S512x2048 (Scalar.ofBits .f32 0xBF800000#32))
      (roundeven (divf v19 (broadcast S512x2048 s))))) bitsLt_bf16_f32

/-- The stored value is the product of the two operands, onto zero, times the scale. -/
theorem pay_eq (v0 : FVec Ideal S256x2048 .f32) (v12 : FVec Ideal S1x2048 .f32) (v17 : FVec Ideal S1x1 .f32)
    (v19 : FVec Ideal S512x2048 .f32) :
    k0_pay1 (F := Ideal) v0 v12 v17 v19
      = mulf (matmul dot_S256x2048_S512x2048_S256x512_1_1_0_0_n_n none (lhsOf v0 v12) (rhsOf (scaleIn v17) v19) (constant S256x512 .f32 0x00000000#32))
          (broadcast S256x512 (scaleIn v17)) := rfl

/-! ## Each piece at an index -/

/-- A row's sum over the 2048 columns. -/
theorem rowsum_apply (X : FVec Ideal S256x2048 .f32) (p : Fin 256) :
    multiReduction .add [1] S256 X 0x00000000#32 reduces_S256x2048_S256 (.inl rfl) rfl (ix1 p)
      = ∑ k : Fin 2048, X (ix2 p k) := by
  refine (Ideal.multiReduction_add_single X 0x00000000#32 reduces_S256x2048_S256 (.inl rfl) rfl (ix1 p)).trans ?_
  refine Finset.sum_congr rfl fun k _ => congrArg X ?_
  funext a
  apply Fin.ext
  match a with
  | ⟨0, _⟩ => rfl
  | ⟨1, _⟩ => rfl

/-- The left operand at (p, k) is the normalised entry of row p. -/
theorem lhs_apply (v0 : FVec Ideal S256x2048 .f32) (v12 : FVec Ideal S1x2048 .f32) (p : Fin 256) (k : Fin 2048) :
    lhsOf v0 v12 (ix2 p k) = normed (fun k => v0 (ix2 p k)) (fun k => v12 (ix2 (0 : Fin 1) k)) k := by
  unfold lhsOf normed
  rw [shapeCast_self, shapeCast_self, truncf_apply, mulf_apply, mulf_apply,
    broadcastTo_a1_ab_apply, broadcastTo_1b_ab_apply]
  show v0 (ix2 p k) * Ideal.rsqrt (Ideal.div (shapeCast S256x1 (multiReduction .add [1] S256 (mulf v0 v0) 0x00000000#32
      reduces_S256x2048_S256 (.inl rfl) rfl) shapeCasts_S256_S256x1 (ix2 p (0 : Fin 1))) (Ideal.ofBits .f32 0x45000000#32)
      + Ideal.ofBits .f32 0x358637BD#32) * v12 (ix2 (0 : Fin 1) k) = _
  rw [shapeCast_a_a1_apply, rowsum_apply]
  rfl

/-- The right operand at (q, k) is the rounded-then-clamped quotient of the weight by the scale. -/
theorem rhs_apply (s : Ideal .f32) (v19 : FVec Ideal S512x2048 .f32) (q : Fin 512) (k : Fin 2048) :
    rhsOf s v19 (ix2 q k) = quantRoundClamp (Ideal.div (v19 (ix2 q k)) s) := rfl

/-- The left operand's row coordinate is the output's row coordinate. -/
theorem lhsIdx_row (i : S256x512.Idx) (c : dot_S256x2048_S512x2048_S256x512_1_1_0_0_n_n.contr.Idx) :
    (dot_S256x2048_S512x2048_S256x512_1_1_0_0_n_n.lhsIdx i c 0).val = (i 0).val := by
  unfold DotDims.lhsIdx
  rw [dif_neg (show ¬(0 : Fin S256x2048.rank) ∈ dot_S256x2048_S512x2048_S256x512_1_1_0_0_n_n.lhsBatch by decide),
    dif_pos (show (0 : Fin S256x2048.rank) ∈ dot_S256x2048_S512x2048_S256x512_1_1_0_0_n_n.lhsNonContracting by decide)]
  rfl

/-- The right operand's row coordinate is the output's column coordinate. -/
theorem rhsIdx_row (i : S256x512.Idx) (c : dot_S256x2048_S512x2048_S256x512_1_1_0_0_n_n.contr.Idx) :
    (dot_S256x2048_S512x2048_S256x512_1_1_0_0_n_n.rhsIdx i c 0).val = (i 1).val := by
  unfold DotDims.rhsIdx
  rw [dif_neg (show ¬(0 : Fin S512x2048.rank) ∈ dot_S256x2048_S512x2048_S256x512_1_1_0_0_n_n.rhsBatch by decide),
    dif_pos (show (0 : Fin S512x2048.rank) ∈ dot_S256x2048_S512x2048_S256x512_1_1_0_0_n_n.rhsNonContracting by decide)]
  rfl

/-- The product onto zero at (p, q) is the sum over the 2048 columns of row p of the left times row q of the right. -/
theorem matmul_rows (L : FVec Ideal S256x2048 .bf16) (R : FVec Ideal S512x2048 .bf16) (p : Fin 256) (q : Fin 512) :
    matmul dot_S256x2048_S512x2048_S256x512_1_1_0_0_n_n none L R (constant S256x512 .f32 0x00000000#32) (ix2 p q)
      = ∑ k : Fin 2048, L (ix2 p k) * R (ix2 q k) := by
  refine (Ideal.matmul_constant_zero_apply dot_S256x2048_S512x2048_S256x512_1_1_0_0_n_n none L R (ix2 p q)).trans ?_
  rw [← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 p q) ((contrEquiv1 dot_S256x2048_S512x2048_S256x512_1_1_0_0_n_n 2048 rfl rfl).symm k) = ix2 p k :=
    funext fun a => Fin.ext (by
      match a with
      | ⟨0, _⟩ => exact lhsIdx_row _ _
      | ⟨1, _⟩ => exact (dot_S256x2048_S512x2048_S256x512_1_1_0_0_n_n.lhsIdx_val_of_single rfl _ _).trans hk)
  have er : dot_S256x2048_S512x2048_S256x512_1_1_0_0_n_n.rhsIdx (ix2 p q) ((contrEquiv1 dot_S256x2048_S512x2048_S256x512_1_1_0_0_n_n 2048 rfl rfl).symm k) = ix2 q k :=
    funext fun a => Fin.ext (by
      match a with
      | ⟨0, _⟩ => exact rhsIdx_row _ _
      | ⟨1, _⟩ => exact (dot_S256x2048_S512x2048_S256x512_1_1_0_0_n_n.rhsIdx_val_of_single rfl _ _).trans hk)
  rw [el, er]

/-- The scale the body reads is the block's entry at (0, 0). -/
theorem scaleIn_eq (v17 : FVec Ideal S1x1 .f32) : scaleIn v17 = v17 (ix2 (0 : Fin 1) (0 : Fin 1)) :=
  congrArg v17 (funext fun a => Fin.ext (by match a with | ⟨0, _⟩ => rfl | ⟨1, _⟩ => rfl))

/-- THE STORED BLOCK at (p, q): the row function of activation row p, weight row q, the gain row and the scale. -/
theorem payload_apply (v0 : FVec Ideal S256x2048 .f32) (v12 : FVec Ideal S1x2048 .f32) (v17 : FVec Ideal S1x1 .f32)
    (v19 : FVec Ideal S512x2048 .f32) (p : Fin 256) (q : Fin 512) :
    k0_pay1 (F := Ideal) v0 v12 v17 v19 (ix2 p q)
      = rowOut quantRoundClamp (fun k => v0 (ix2 p k)) (fun k => v19 (ix2 q k)) (fun k => v12 (ix2 (0 : Fin 1) k))
          (v17 (ix2 (0 : Fin 1) (0 : Fin 1))) := by
  rw [pay_eq, mulf_apply, broadcast_apply, matmul_rows, scaleIn_eq]
  unfold rowOut
  refine congrArg (· * v17 (ix2 (0 : Fin 1) (0 : Fin 1))) (Finset.sum_congr rfl fun k _ => ?_)
  rw [lhs_apply, rhs_apply]

end Cert.TernaryLinear.Body

end
-- ==== Proof.Blocks.lean ====
/-
  From the blocks the grid points write to the whole result array, and through the reshapes around the call.

  The call works on the activations as an 8192 x 2048 matrix (rows (b, s) in row-major order), the gain as a
  1 x 2048 row and the scale as a 1 x 1 block. Grid point (i, j) reads rows 256 i .. 256 i + 255 of the activations and
  rows 512 j .. 512 j + 511 of the weights and writes block (i, j) of an 8192 x 8192 matrix; the 32 x 16 blocks tile
  it; and the matrix is read back as 4 x 2048 x 8192. Element (b, s, o) of that is the specification's element, with
  the round-then-clamp quantisation.
-/
import proofs.«159467_j4372276707631_1_alg».proof.Proof.Body
import proofs.«159467_j4372276707631_1_alg».proof.Proof.Gen.KernelIdeal.Frame
import Idealize.ShloMosaic.Lib.Pipeline.Value
import Idealize.ShloMosaic.Lib.StableHlo.Run
import Idealize.ShloMosaic.Lib.ValueLayout

noncomputable section

namespace Cert.TernaryLinear.Kernel

open Cert.KernelIdeal Cert.KernelIdeal.Gen Cert.TernaryLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the call finds -/

/-- The activations as the call finds them: the 8192 x 2048 matrix. -/
abbrev X2 (c : Dev nD) : S8192x2048.Idx → EReal := V m c main_v0
/-- The weights. -/
abbrev W2 (c : Dev nD) : S8192x2048.Idx → EReal := V m c main_arg1
/-- The gain as a row. -/
abbrev G1 (c : Dev nD) : S1x2048.Idx → EReal := V m c main_v1
/-- The scale as a 1 x 1 block. -/
abbrev Sc (c : Dev nD) : S1x1.Idx → EReal := V m c main_v6

/-- Element (r, o) of the matrix the call writes. -/
def outAt (c : Dev nD) (r : Fin 8192) (o : Fin 8192) : EReal :=
  rowOut quantRoundClamp (fun k => X2 m c (ix2 r k)) (fun k => W2 m c (ix2 o k)) (fun k => G1 m c (ix2 (0 : Fin 1) k))
    (Sc m c (ix2 (0 : Fin 1) (0 : Fin 1)))

/-- The matrix the call writes. -/
def outArray (c : Dev nD) : S8192x8192.Idx → EReal := fun i => outAt m c (i 0) (i 1)

/-! ## The index maps over the grid -/

/-- The printed index maps, decided at each of the 512 grid points: the output's block is (t / 16, t % 16), the
    activations' block row is the output's, the weights' block row is the output's block column, and the gain and the
    scale are their whole arrays. -/
theorem idx_facts : ∀ t : Fin cfg0.N, win0_4.index t (0 : Fin 2) = t.val / 16 ∧ win0_4.index t (1 : Fin 2) = t.val % 16
    ∧ win0_1.index t (0 : Fin 2) = t.val / 16 ∧ win0_1.index t (1 : Fin 2) = 0
    ∧ win0_2.index t (0 : Fin 2) = t.val % 16 ∧ win0_2.index t (1 : Fin 2) = 0
    ∧ win0_0.index t (0 : Fin 2) = 0 ∧ win0_0.index t (1 : Fin 2) = 0
    ∧ win0_3.index t (0 : Fin 2) = 0 ∧ win0_3.index t (1 : Fin 2) = 0 :=
  (by decide +kernel : ∀ t : Fin grid0.N, _)

/-! ## Each input block, read in its array -/

theorem blk_x (c : Dev nD) (t : Fin cfg0.N) (p : Fin 256) (k : Fin 2048) (r : Fin 8192) (hr : r.val = t.val / 16 * 256 + p.val) :
    (iblk m c 1 t : S256x2048.Idx → EReal) (ix2 p k) = X2 m c (ix2 r k) := by
  obtain ⟨-, -, e0, e1, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * k.val = k.val; rw [e1]; omega

theorem blk_w (c : Dev nD) (t : Fin cfg0.N) (q : Fin 512) (k : Fin 2048) (o : Fin 8192) (ho : o.val = t.val % 16 * 512 + q.val) :
    (iblk m c 2 t : S512x2048.Idx → EReal) (ix2 q k) = W2 m c (ix2 o k) := by
  obtain ⟨-, -, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_2.index t (0 : Fin 2) * 512 + 1 * q.val = o.val; rw [e0, ho]; omega
  | ⟨1, _⟩ => show win0_2.index t (1 : Fin 2) * 2048 + 1 * k.val = k.val; rw [e1]; omega

theorem blk_g (c : Dev nD) (t : Fin cfg0.N) (k : Fin 2048) :
    (iblk m c 3 t : S1x2048.Idx → EReal) (ix2 (0 : Fin 1) k) = G1 m c (ix2 (0 : Fin 1) k) := by
  obtain ⟨-, -, -, -, -, -, -, -, e0, e1⟩ := idx_facts t
  unfold iblk
  rw [View.read_apply]
  show V m c main_v1 _ = V m c main_v1 _
  refine congrArg (V m c main_v1) (funext fun a => Fin.ext ?_)
  match a with
  | ⟨0, _⟩ => show win0_3.index t (0 : Fin 2) * 1 + 1 * 0 = 0; rw [e0]
  | ⟨1, _⟩ => show win0_3.index t (1 : Fin 2) * 2048 + 1 * k.val = k.val; rw [e1]; omega

theorem blk_s (c : Dev nD) (t : Fin cfg0.N) :
    (iblk m c 0 t : S1x1.Idx → EReal) (ix2 (0 : Fin 1) (0 : Fin 1)) = Sc m c (ix2 (0 : Fin 1) (0 : Fin 1)) := by
  obtain ⟨-, -, -, -, -, -, e0, e1, -⟩ := idx_facts t
  unfold iblk
  rw [View.read_apply]
  show V m c main_v6 _ = V m c main_v6 _
  refine congrArg (V m c main_v6) (funext fun a => Fin.ext ?_)
  match a with
  | ⟨0, _⟩ => show win0_0.index t (0 : Fin 2) * 1 + 1 * 0 = 0; rw [e0]
  | ⟨1, _⟩ => show win0_0.index t (1 : Fin 2) * 1 + 1 * 0 = 0; rw [e1]

/-! ## What a grid point writes -/

/-- The body's stored block at (p, q), at grid point t, is the matrix's element at the block's place. -/
theorem block_point (c : Dev nD) (t : Fin cfg0.N) (p : Fin 256) (q : Fin 512) (r o : Fin 8192)
    (hr : r.val = t.val / 16 * 256 + p.val) (ho : o.val = t.val % 16 * 512 + q.val) :
    k0_pay1 (F := Ideal) (iblk m c 1 t) (iblk m c 3 t) (iblk m c 0 t) (iblk m c 2 t) (ix2 p q) = outAt m c r o := by
  refine (Body.payload_apply (iblk m c 1 t) (iblk m c 3 t) (iblk m c 0 t) (iblk m c 2 t) p q).trans ?_
  unfold outAt
  rw [blk_s m c t, funext fun k => blk_x m c t p k r hr, funext fun k => blk_w m c t q k o ho, funext fun k => blk_g m c t k]

/-- WHAT POINT t WRITES BACK is block t of the matrix. -/
theorem flushed_eq (c : Dev nD) (t : Fin cfg0.N) :
    (dats m 0 c).flushed 4 t = ((cfg0.win 4).blk t).view.read (Elt Ideal) (outArray m c) := by
  obtain ⟨e0, e1, -⟩ := idx_facts t
  show (cfg0.win 4).cut (grid0.coords t) ((dats m 0 c).after 4 t) = _
  rw [after0_4]
  unfold out0_4
  rw [View.canon_unit_zero hz]
  simp only [View.ld_unit_zero (S := S256x2048) hz, View.ld_unit_zero (S := S1x2048) hz, View.ld_unit_zero (S := S1x1) hz,
    View.ld_unit_zero (S := S512x2048) hz]
  funext y
  rw [View.read_apply]
  obtain ⟨p, q, rfl⟩ : ∃ (p : Fin 256) (q : Fin 512), y = ix2 p q := ⟨y 0, y 1, eq_ix2 y⟩
  have ht : t.val < 512 := Nat.lt_of_lt_of_eq t.isLt N_0
  refine (block_point m c t p q ⟨t.val / 16 * 256 + p.val, by omega⟩ ⟨t.val % 16 * 512 + q.val, by omega⟩ rfl rfl).trans ?_
  unfold outArray
  refine congrArg₂ (outAt m c) (Fin.ext ?_) (Fin.ext ?_)
  · show t.val / 16 * 256 + p.val = win0_4.index t (0 : Fin 2) * 256 + 1 * p.val
    rw [e0]; omega
  · show t.val % 16 * 512 + q.val = win0_4.index t (1 : Fin 2) * 512 + 1 * q.val
    rw [e1]; omega

/-! ## The blocks tile the matrix -/

theorem mem_blk (t : Fin cfg0.N) (i : S8192x8192.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v7).slice (win0_4.rect t)).set ↔ _
  rw [View.set_slice_whole, Rect.mem_set_unit]
  exact Iff.rfl

/-- Element (r, o) is in the block of grid point (r / 256) * 16 + o / 512. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  have hN : cfg0.N = 512 := N_0
  let t : Fin cfg0.N := ⟨(i 0).val / 256 * 16 + (i 1).val / 512, by rw [hN]; omega⟩
  obtain ⟨e0, e1, -⟩ := idx_facts t
  have tv : t.val = (i 0).val / 256 * 16 + (i 1).val / 512 := rfl
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0, tv]; omega
  | ⟨1, _⟩ =>
    show win0_4.index t (1 : Fin 2) * 512 ≤ (i 1).val ∧ (i 1).val < win0_4.index t (1 : Fin 2) * 512 + 512
    rw [e1, tv]; omega

/-- THE MATRIX after the call. -/
theorem final (c : Dev nD) : (dats m 0 c).arrAt 4 cfg0.N = outArray m c :=
  (dats m 0 c).arrAt_eq_of_cover 4 (outArray m c) (fun t _ => flushed_eq m c t) cover

end Cert.TernaryLinear.Kernel

end
-- ==== Proof.KernelRun.lean ====
/-
  The kernel's program, run: its result array is the specification with the round-then-clamp quantisation.

  Before the call the host reshapes the activations to 8192 x 2048 (row b * 2048 + s is row (b, s)), the gain to a
  1 x 2048 row, and computes the scale into a 1 x 1 block; after the call it reshapes the 8192 x 8192 matrix to
  4 x 2048 x 8192. Read through those reshapes, element (b, s, o) of the result is the matrix's element
  (b * 2048 + s, o).
-/
import proofs.«159467_j4372276707631_1_alg».proof.Proof.Blocks

noncomputable section

namespace Cert.TernaryLinear.Kernel

open Cert.KernelIdeal Cert.KernelIdeal.Gen Cert.TernaryLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host operations before the call -/

/-- The activations, reshaped. -/
theorem X2_eq (c : Dev nD) :
    X2 m c = shapeCast S8192x2048 (m ((c : Thread nD τ).loc main_arg0) : S4x2048x2048.Idx → EReal) shapeCasts_S4x2048x2048_S8192x2048 := by
  show StableHlo.after hostOps0 (fun b => m (c, b)) (Proc.devRef .tc main_v0) = _
  after_results
  rfl

/-- The gain, reshaped. -/
theorem G1_eq (c : Dev nD) :
    G1 m c = shapeCast S1x2048 (m ((c : Thread nD τ).loc main_arg2) : S2048.Idx → EReal) shapeCasts_S2048_S1x2048 := by
  show StableHlo.after hostOps0 (fun b => m (c, b)) (Proc.devRef .tc main_v1) = _
  after_results
  rfl

/-- The scale, computed from the weights and reshaped. -/
theorem Sc_eq (c : Dev nD) :
    Sc m c = shapeCast S1x1
      (maximumf (F := Ideal) (φ := .f32)
        (Host.divf (F := Ideal) (Host.reduceAdd (F := Ideal) (Host.absf (F := Ideal) (φ := .f32) (m ((c : Thread nD τ).loc main_arg1) : S8192x2048.Idx → EReal))
          (constant (F := Ideal) S_ .f32 0x00000000#32) reducesTo_S8192x2048_S_d0_1 h_S_) (constant (F := Ideal) S_ .f32 0x4B800000#32))
        (constant (F := Ideal) S_ .f32 0x3727C5AC#32)) shapeCasts_S_S1x1 := by
  show StableHlo.after hostOps0 (fun b => m (c, b)) (Proc.devRef .tc main_v6) = _
  after_results
  rfl

/-- Row b * 2048 + s of the reshaped activations is row (b, s). -/
theorem X2_apply (c : Dev nD) (b : Fin 4) (s : Fin 2048) (k : Fin 2048) (r : Fin 8192) (hr : r.val = b.val * 2048 + s.val) :
    X2 m c (ix2 r k) = (m ((c : Thread nD τ).loc main_arg0) : S4x2048x2048.Idx → EReal) (ix3 b s k) := by
  rw [X2_eq]
  refine shapeCast_apply (s := S4x2048x2048) (t := S8192x2048) _ _ (ix2 r k) (ix3 b s k) ?_
  rw [Shape.rowMajor_val_three, Shape.rowMajor_val_two]
  show (b.val * 2048 + s.val) * 2048 + k.val = r.val * 2048 + k.val
  rw [hr]

/-- The gain's row reads the gain. -/
theorem G1_apply (c : Dev nD) (k : Fin 2048) :
    G1 m c (ix2 (0 : Fin 1) k) = (m ((c : Thread nD τ).loc main_arg2) : S2048.Idx → EReal) (ix1 k) := by
  rw [G1_eq]
  exact shapeCast_a_1a_apply _ _ 0 k

/-- The 1 x 1 block holds the specification's scale. -/
theorem Sc_apply (c : Dev nD) :
    Sc m c (ix2 (0 : Fin 1) (0 : Fin 1)) = scaleOf (m ((c : Thread nD τ).loc main_arg1)) := by
  rw [Sc_eq]
  refine (shapeCast_apply _ _ _ ix0 ?_).trans rfl
  rw [Shape.rowMajor_val_two]
  show (Shape.rowMajorPi _ _).val = 0 * 1 + 0
  rw [Shape.rowMajorPi_zero]

/-! ## The reshape after the call -/

/-- The result array is the matrix the call wrote, reshaped. -/
theorem tail_eq (c : Dev nD) :
    Pipeline.afterTail₀ cfgs (dats m) 0 (V0 m) [hostOps1] c main_v8
      = shapeCast S4x2048x8192 ((dats m 0 c).arrAt 4 cfg0.N : S8192x8192.Idx → EReal) shapeCasts_S8192x8192_S4x2048x8192 := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v7)
      = (dats m 0 c).arrAt 4 cfg0.N from Pipeline.withArrays_arr spec0 launch0.win.arr_inj c _ _ 4]
  rfl

/-! ## The result array -/

/-- THE RESULT ARRAY, as the program's last operation leaves it, is the specification's. -/
theorem value_eq (c : Dev nD) :
    Pipeline.afterTail₀ cfgs (dats m) 0 (V0 m) [hostOps1] c main_v8
      = result quantRoundClamp (m ((c : Thread nD τ).loc main_arg0)) (m ((c : Thread nD τ).loc main_arg1)) (m ((c : Thread nD τ).loc main_arg2)) := by
  rw [tail_eq, final]
  funext i
  obtain ⟨b, s, o, rfl⟩ : ∃ (b : Fin 4) (s : Fin 2048) (o : Fin 8192), i = ix3 b s o := ⟨i 0, i 1, i 2, eq_ix3 i⟩
  have hb : b.val < 4 := b.isLt
  have hs : s.val < 2048 := s.isLt
  refine (shapeCast_apply (s := S8192x8192) (t := S4x2048x8192) (outArray m c) _ (ix3 b s o)
    (ix2 (⟨b.val * 2048 + s.val, by omega⟩ : Fin 8192) o) ?_).trans ?_
  · rw [Shape.rowMajor_val_three, Shape.rowMajor_val_two]
    rfl
  · rw [result_apply]
    show outAt m c ⟨b.val * 2048 + s.val, _⟩ o = _
    unfold outAt resultAt
    rw [Sc_apply, funext fun k => X2_apply m c b s k ⟨b.val * 2048 + s.val, by omega⟩ rfl, funext fun k => G1_apply m c k]
    rfl

/-- THE RUN: every weakly fair execution of the kernel's program ends with the result array at the specification
    (round, then clamp) of the argument arrays, and the arguments unchanged. -/
theorem run : θ_run defs (onTc (τ := τ) (main (F := Ideal))) ⟨m, fun _ => 0, ρ⟩ fun r => ∀ c : Dev nD,
      r.2.mem ((c : Thread nD τ).loc main_v8)
        = result quantRoundClamp (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v8 (Pipeline.mem_restRefs_of main_v8 (by decide) (by decide))).trans (value_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.TernaryLinear.Kernel

end
-- ==== Proof.RefValue.lean ====
/-
  The reference computes the specification with the clamp-round-and-add-back quantisation.

  Read one operation at a time at an output index (b, s, o): the product with the scale of the sum over d of
  (x[b, s, d] * rsqrt(mean square of row (b, s) + eps) * g[d]) times the quantised w[o, d] / scale.
-/
import proofs.«159467_j4372276707631_1_alg».proof.Proof.Spec
import proofs.«159467_j4372276707631_1_alg».proof.Proof.Gen.ReferenceIdeal.Read

noncomputable section

namespace Cert.TernaryLinear.Ref

open Cert.ReferenceIdeal Cert.ReferenceIdeal.Gen Cert.ReferenceIdeal.Read Cert.TernaryLinear
open Idealize.ShloMosaic Idealize.ShloMosaic.ValueIdx

/-- The reference's scale is the specification's. -/
theorem scale_eq (w : SW.Idx → EReal) (j : S_.Idx) : val_main_v16 (F := Ideal) w j = scaleOf w := by
  rw [eq_ix0 j]; rfl

/-- The normalised activation the contraction reads at (b, s, k). -/
theorem normed_eq (x : SX.Idx → EReal) (g : SG.Idx → EReal) (b : Fin 4) (s : Fin 2048) (o : Fin 8192) (k : Fin 2048) :
    val_main_v12 (F := Ideal) x g (lidx_main_v23 (ix3 b s o) k)
      = normed (fun k => x (ix3 b s k)) (fun k => g (ix1 k)) k := by
  have e0 : lidx_main_v23 (ix3 b s o) k = ix3 b s k :=
    funext fun a => Fin.ext (by match a with | ⟨0, _⟩ => rfl | ⟨1, _⟩ => rfl | ⟨2, _⟩ => rfl)
  have e1 : ∀ k' : Fin 2048, idx_main_v1 (idx_main_v2 (idx_main_v8 (ix3 b s k))) k' = ix3 b s k' := fun k' =>
    funext fun a => Fin.ext (by match a with | ⟨0, _⟩ => rfl | ⟨1, _⟩ => rfl | ⟨2, _⟩ => rfl)
  have e2 : idx_main_v10 (idx_main_v11 (ix3 b s k)) = ix1 k :=
    funext fun a => Fin.ext (by match a with | ⟨0, _⟩ => rfl)
  rw [e0, val_main_v12_apply, val_main_v9_apply, val_main_v8_apply, val_main_v7_apply, val_main_v6_apply,
    val_main_v4_apply, val_main_v2_apply, val_main_v1_apply, val_main_v3_apply, val_main_v5_apply,
    val_main_v11_apply, val_main_v10_apply, e2]
  simp only [val_main_v0_apply, e1, val_main_cst_apply, val_main_cst_0_apply, val_main_cst_1_apply,
    Ideal.ofBits_def, Ideal.ofBits_zero_f32, zero_add, Ideal.mulf_def, Ideal.addf_def, Ideal.hostDivf_def,
    Ideal.hostUnary_rsqrt_def]
  rfl

/-- The quantised weight the contraction reads at (o, k). -/
theorem quant_eq (w : SW.Idx → EReal) (b : Fin 4) (s : Fin 2048) (o : Fin 8192) (k : Fin 2048) :
    val_main_v22 (F := Ideal) w (ridx_main_v23 (ix3 b s o) k)
      = quantClampRoundThrough (Ideal.div (w (ix2 o k)) (scaleOf w)) := by
  have e0 : ridx_main_v23 (ix3 b s o) k = ix2 o k :=
    funext fun a => Fin.ext (by match a with | ⟨0, _⟩ => rfl | ⟨1, _⟩ => rfl)
  rw [e0, val_main_v22_apply, val_main_v21_apply, val_main_v20_apply, val_main_v19_apply, val_main_call0_v4_apply,
    val_main_call0_v2_apply, val_main_call0_v1_apply, val_main_v18_apply, val_main_v17_apply, scale_eq]
  simp only [val_main_call0_v3_apply, val_main_call0_v0_apply, val_main_cst_5_apply, val_main_cst_6_apply,
    Ideal.ofBits_def, Ideal.addf_def, Ideal.subf_def, Ideal.hostDivf_def, Ideal.hostUnary_roundeven_def,
    Ideal.maximumf_def, Ideal.minimumf_def]
  rfl

/-- THE REFERENCE'S RESULT is the specification with the clamp-round-and-add-back quantisation. -/
theorem value_eq (x : SX.Idx → EReal) (w : SW.Idx → EReal) (g : SG.Idx → EReal) :
    val_main_v25 (F := Ideal) x w g = result quantClampRoundThrough x w g := by
  funext i
  obtain ⟨b, s, o, rfl⟩ : ∃ (b : Fin 4) (s : Fin 2048) (o : Fin 8192), i = ix3 b s o := ⟨i 0, i 1, i 2, eq_ix3 i⟩
  rw [result_apply, val_main_v25_apply, val_main_v23_apply, val_main_v24_apply, scale_eq]
  unfold resultAt rowOut
  rw [Ideal.mulf_def]
  refine congrArg (· * scaleOf w) (Finset.sum_congr rfl fun k _ => ?_)
  rw [normed_eq, quant_eq]

end Cert.TernaryLinear.Ref

end
-- ==== Proof.Finite.lean ====
/-
  The precondition gives real weights.

  The precondition is the conjunction of three statements "every |entry| is below +infinity", one per input. Read at
  the weights: every entry w[o, d] has max(w, -w) below the extended reals' top, so it is neither infinity: a real number.
-/
import proofs.«159467_j4372276707631_1_alg».proof.Pre_finite_inputs
import proofs.«159467_j4372276707631_1_alg».proof.Proof.Gen.Pre_finite_inputs
import Idealize.ShloMosaic.Lib.ReduceAll
import Idealize.ShloMosaic.Lib.Affine
import Idealize.ShloMosaic.Lib.IdealHost
import Idealize.ShloMosaic.Lib.ValueIdx
import Idealize.ShloMosaic.PureOps.Ideal.Laws

noncomputable section

namespace Cert.TernaryLinear.Finite

open Idealize.ShloMosaic Idealize.ShloMosaic.ValueIdx Cert.Pre_finite_inputs

/-- The scalar shape has one index. -/
instance : Subsingleton S_.Idx := ⟨fun a b => funext fun d => d.elim0⟩

/-- An extended real whose absolute value is below the top is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The f32 pattern `0x7F800000` is plus infinity. -/
theorem ofBits_inf : Ideal.ofBits .f32 0x7F800000#32 = ⊤ := by simp [Ideal.ofBits, Ideal.ieee]

/-- Under the precondition every weight is a real number. -/
theorem weights_real (x : FVec Ideal S4x2048x2048 .f32) (w : FVec Ideal S8192x2048 .f32) (g : FVec Ideal S2048 .f32)
    (h : fn (F := Ideal) x w g = fun _ => 1#1) (j : S8192x2048.Idx) : ∃ r : ℝ, w j = (r : EReal) := by
  have h0 := congrFun h ix0
  dsimp only [fn] at h0
  have h1 := (IntOp.andi_eq_one.mp h0).1
  have h2 := (IntOp.andi_eq_one.mp h1).2
  have h3 := Host.reduce_andi_all _ _ _ _ _ h2 j
  rw [cmpf_apply, broadcastInDim_scalar_apply] at h3
  refine real_of_abs_lt_top (w j) ?_
  have h4 : Ideal.cmp .olt (max (w j) (-(w j))) (Ideal.ofBits .f32 0x7F800000#32) = 1#1 := h3
  rw [ofBits_inf] at h4
  have h5 : BitVec.ofBool (decide (max (w j) (-(w j)) < (⊤ : EReal))) = 1#1 := h4
  by_contra hn
  rw [decide_eq_false hn] at h5
  exact absurd h5 (by decide)

end Cert.TernaryLinear.Finite

end
-- ==== Proof.lean ====
/-
  The certificate: a ternary-weight linear layer behind an RMS normalisation, a Pallas kernel against its jnp reference.

  Both programs compute, for activations x[b, s, d], weights w[o, d] and a gain g[d],
      out[b, s, o] = scale * sum over d of (x[b, s, d] * rsqrt(mean_d x[b, s, d]^2 + eps) * g[d]) * q(w[o, d] / scale),
  with scale = max(mean |w|, 1e-5) one number. They differ in three ways, none of which changes the value on the
  extended reals: the kernel works on the activations as an 8192 x 2048 matrix, in 32 x 16 blocks of 256 x 512 outputs,
  and the reference on the 4 x 2048 x 2048 array whole; the kernel rounds its matrix product's operands to bf16, which
  is the identity here; and the quantisation q is round-then-clamp in the kernel and clamp-round, minus the quotient,
  plus the quotient in the reference. Rounding and clamping to [-1, 1] commute, and (q - y) + y = q for a real y; the
  quotient y = w / scale is real because the weights are finite (the precondition) and the scale is positive.

  The frames of the two kernel programs are the generated ones; the reference's frame is its generated run; the
  idealisation rewrote nothing, so there is nothing to preserve.
-/
import proofs.«159467_j4372276707631_1_alg».proof.Defs
import proofs.«159467_j4372276707631_1_alg».proof.Proof.Gen.Kernel
import proofs.«159467_j4372276707631_1_alg».proof.Proof.Gen.Kernel.Skeleton
import proofs.«159467_j4372276707631_1_alg».proof.Proof.Gen.Kernel.Launch
import proofs.«159467_j4372276707631_1_alg».proof.Proof.Gen.Kernel.Points
import proofs.«159467_j4372276707631_1_alg».proof.Proof.Gen.Kernel.Frame
import proofs.«159467_j4372276707631_1_alg».proof.Proof.Gen.KernelIdeal
import proofs.«159467_j4372276707631_1_alg».proof.Proof.Gen.KernelIdeal.Skeleton
import proofs.«159467_j4372276707631_1_alg».proof.Proof.Gen.KernelIdeal.Launch
import proofs.«159467_j4372276707631_1_alg».proof.Proof.Gen.KernelIdeal.Points
import proofs.«159467_j4372276707631_1_alg».proof.Proof.Gen.KernelIdeal.Frame
import proofs.«159467_j4372276707631_1_alg».proof.Proof.Gen.ReferenceIdeal
import proofs.«159467_j4372276707631_1_alg».proof.Proof.Gen.ReferenceIdeal.Run
import proofs.«159467_j4372276707631_1_alg».proof.Proof.Gen.ReferenceIdeal.Read
import proofs.«159467_j4372276707631_1_alg».proof.Proof.Gen.Pre_finite_inputs
import proofs.«159467_j4372276707631_1_alg».proof.Proof.KernelRun
import proofs.«159467_j4372276707631_1_alg».proof.Proof.RefValue
import proofs.«159467_j4372276707631_1_alg».proof.Proof.Finite
import Idealize.ShloMosaic.Adequacy
import Idealize.ShloMosaic.Init

noncomputable section

namespace Cert.Proof

open Idealize.ShloMosaic Idealize.ShloMosaic.TcCoe Idealize.SL.Sem Cert.TernaryLinear

/-- The word-level kernel program runs and keeps its arguments. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- On the extended reals the kernel's result is the specification with round-then-clamp, the reference's the
    specification with clamp-round-and-add-back; the weights being real numbers, the two are one array. -/
theorem algebraic : Cert.algebraic_KernelIdeal_ReferenceIdeal := by
  intro m ρ m' ρ' hpre hagree
  refine ⟨fun c => result quantRoundClamp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.TernaryLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.TernaryLinear.Ref.value_eq, (hagree c).1, (hagree c).2.1, (hagree c).2.2]
  exact (result_quant_eq _ _ _ fun j => Cert.TernaryLinear.Finite.weights_real _ _ _ (hpre c) j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
